-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x3 : Shape := ⟨2, ![524288, 3]⟩
abbrev S512x3 : Shape := ⟨2, ![512, 3]⟩
abbrev S512 : Shape := ⟨1, ![512]⟩
abbrev S_ : Shape := ⟨0, ![]⟩

class Facts : Prop where
  bcast_S_S524288x3 : S_.BroadcastsInDim S524288x3 (![] : Fin 0 → Fin S524288x3.rank)
  reducesTo_S524288x3_S_d0_1 : S524288x3.ReducesTo [0, 1] S_
  h_S_ : 0 < S_.numel
  bcast_S_S512x3 : S_.BroadcastsInDim S512x3 (![] : Fin 0 → Fin S512x3.rank)
  reducesTo_S512x3_S_d0_1 : S512x3.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S524288x3 .f32) (main_arg1 : FVec F S512x3 .f32) (main_arg2 : FVec F S512 .f32) : IVec S_ 1 :=
  let main_v0 : FVec F S524288x3 .f32 := Host.absf main_arg0
  let main_cst : FVec F S_ .f32 := constant S_ .f32 0x7F800000#32
  let main_v1 : FVec F S524288x3 .f32 := broadcastInDim S524288x3 ![] bcast_S_S524288x3 main_cst
  let main_v2 : IVec S524288x3 1 := cmpf .olt main_v0 main_v1
  let main_c : IVec S_ 1 := constantI S_ 1 1#1
  let main_v3 : IVec S_ 1 := (fun x v => Host.reduce IntOp.andi x v reducesTo_S524288x3_S_d0_1 h_S_) main_v2 main_c
  let main_v4 : FVec F S512x3 .f32 := Host.absf main_arg1
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S524288x3 : Shape := ⟨2, ![524288, 3]⟩
abbrev S512x3 : Shape := ⟨2, ![512, 3]⟩
abbrev S512 : Shape := ⟨1, ![512]⟩
abbrev S3x512 : Shape := ⟨2, ![3, 512]⟩
abbrev S_ : Shape := ⟨0, ![]⟩
abbrev S1x512 : Shape := ⟨2, ![1, 512]⟩
abbrev S524288x512 : Shape := ⟨2, ![524288, 512]⟩
abbrev S4096x3 : Shape := ⟨2, ![4096, 3]⟩
abbrev S4096x512 : Shape := ⟨2, ![4096, 512]⟩
abbrev S2048x3 : Shape := ⟨2, ![2048, 3]⟩
abbrev S2048x1 : Shape := ⟨2, ![2048, 1]⟩
abbrev S2048x512 : Shape := ⟨2, ![2048, 512]⟩

abbrev nBuf : Space → Nat
  | .hbm => 10
  | .vmem => 6
  | .smem => 0
  | _ => 0

abbrev bufTy : (tb : Table) → Fin (tcTables nBuf tb) → BufTy
  | .hbm, ⟨0, _⟩ => ⟨S524288x3, .f32⟩
  | .hbm, ⟨1, _⟩ => ⟨S512x3, .f32⟩
  | .hbm, ⟨2, _⟩ => ⟨S512, .f32⟩
  | .hbm, ⟨3, _⟩ => ⟨S3x512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S524288x512, .f32⟩
  | .local _ .vmem, ⟨0, _⟩ => ⟨S4096x3, .f32⟩
  | .local _ .vmem, ⟨1, _⟩ => ⟨S4096x3, .f32⟩
  | .local _ .vmem, ⟨2, _⟩ => ⟨S3x512, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S524288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def k0_mult1 : BitVec 32 :=
  let c0_i32 : BitVec 32 := 0#32
  let c2048_i32 : BitVec 32 := 2048#32
  let v4 : BitVec 32 := Scalar.muli c0_i32 c2048_i32
  v4
def k0_off1 (c0_i32 : BitVec 32) : Fin 2 → Nat :=
  let c2048_i32 : BitVec 32 := 2048#32
  let v4 : BitVec 32 := Scalar.muli c0_i32 c2048_i32
  let v5 : BitVec 32 := v4
  let v6 : Index := Scalar.indexCast v5
  let c0_3 : Index := 0#32
  ![v6.toNat, 0]
def k0_off2 (c0_i32 : BitVec 32) : Fin 2 → Nat :=
  let c2048_i32 : BitVec 32 := 2048#32
  let v4 : BitVec 32 := Scalar.muli c0_i32 c2048_i32
  let v5 : BitVec 32 := v4
  let v33 : Index := Scalar.indexCast v5
  let c0_4 : Index := 0#32
  ![v33.toNat, 0]
def k0_mult2 : BitVec 32 :=
  let c1_i32 : BitVec 32 := 1#32
  let c2048_i32_5 : BitVec 32 := 2048#32
  let v35 : BitVec 32 := Scalar.muli c1_i32 c2048_i32_5
  v35
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x3_S3x512_1_0 : S512x3.Transposes [1, 0] S3x512
  bcast_S_S512 : S_.BroadcastsInDim S512 (![] : Fin 0 → Fin S512.rank)
  shapeCasts_S512_S1x512 : S512.ShapeCasts S1x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  h_S2048x3 : 0 < S2048x3.numel
  slices_S2048x3_o0_0_S2048x1 : S2048x3.Slices ![0, 0] S2048x1
  slices_S3x512_o0_0_S1x512 : S3x512.Slices ![0, 0] S1x512
  broadcasts_S2048x1_S2048x512 : S2048x1.Broadcasts S2048x512
  broadcasts_S1x512_S2048x512 : S1x512.Broadcasts S2048x512
  slices_S2048x3_o0_1_S2048x1 : S2048x3.Slices ![0, 1] S2048x1
  slices_S3x512_o1_0_S1x512 : S3x512.Slices ![1, 0] S1x512
  slices_S2048x3_o0_2_S2048x1 : S2048x3.Slices ![0, 2] S2048x1
  slices_S3x512_o2_0_S1x512 : S3x512.Slices ![2, 0] S1x512
  h_S2048x512 : 0 < S2048x512.numel
  hrank0 : 0 < grid0.rank
  k0_mult1_dvd : 2048 ∣ k0_mult1.toNat
  k0_off1_inb : ∀ (r : Fin 2), ∀ a, (k0_off1 (BitVec.ofNat 32 r.val)) a + S2048x3.size a ≤ S4096x3.size a
  k0_off2_inb : ∀ (r : Fin 2), ∀ a, (k0_off2 (BitVec.ofNat 32 r.val)) a + S2048x512.size a ≤ S4096x512.size a
  k0_mult2_dvd : 2048 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S524288x3.size a
  hwx0_0 : ∀ i : grid0.Coords, EltTy.bits .f32 = 32 ∨ (Rect.block (s := S524288x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x512.size a
  hwx0_1 : ∀ i : grid0.Coords, EltTy.bits .f32 = 32 ∨ (Rect.block (s := S3x512) S3x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S524288x512.size a
  hwx0_3 : ∀ i : grid0.Coords, EltTy.bits .f32 = 32 ∨ (Rect.block (s := S524288x512) S4096x512.size (cc0_transform_3 i) (hinb0_3 i)).WholeWords (EltTy.packing .f32)

variable [Facts₀]

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x3 : Shape := ⟨2, ![524288, 3]⟩
abbrev S512x3 : Shape := ⟨2, ![512, 3]⟩
abbrev S512 : Shape := ⟨1, ![512]⟩
abbrev S_ : Shape := ⟨0, ![]⟩
abbrev S524288 : Shape := ⟨1, ![524288]⟩
abbrev S524288x1 : Shape := ⟨2, ![524288, 1]⟩
abbrev S1x512 : Shape := ⟨2, ![1, 512]⟩
abbrev S524288x512 : Shape := ⟨2, ![524288, 512]⟩

abbrev nBuf : Space → Nat
  | .hbm => 30
  | .vmem => 0
  | .smem => 0
  | _ => 0

abbrev bufTy : (tb : Table) → Fin (tcTables nBuf tb) → BufTy
  | .hbm, ⟨0, _⟩ => ⟨S524288x3, .f32⟩
  | .hbm, ⟨1, _⟩ => ⟨S512x3, .f32⟩
  | .hbm, ⟨2, _⟩ => ⟨S512, .f32⟩
  | .hbm, ⟨3, _⟩ => ⟨S524288x3, .f32⟩
  | .hbm, ⟨4, _⟩ => ⟨S_, .f32⟩
  | .hbm, ⟨5, _⟩ => ⟨S524288, .f32⟩
  | .hbm, ⟨6, _⟩ => ⟨S524288x1, .f32⟩
  | .hbm, ⟨7, _⟩ => ⟨S512x3, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S524288x512, .f32⟩
  | .hbm, ⟨12, _⟩ => ⟨S524288x512, .f32⟩
  | .hbm, ⟨13, _⟩ => ⟨S524288x512, .f32⟩
  | .hbm, ⟨14, _⟩ => ⟨S524288x512, .f32⟩
  | .hbm, ⟨15, _⟩ => ⟨S_, .f32⟩
  | .hbm, ⟨16, _⟩ => ⟨S524288x512, .f32⟩
  | .hbm, ⟨17, _⟩ => ⟨S524288x512, .f32⟩
  | .hbm, ⟨18, _⟩ => ⟨S524288x512, .f32⟩
  | .hbm, ⟨19, _⟩ => ⟨S_, .f32⟩
  | .hbm, ⟨20, _⟩ => ⟨S524288x512, .f32⟩
  | .hbm, ⟨21, _⟩ => ⟨S524288x512, .f32⟩
  | .hbm, ⟨22, _⟩ => ⟨S524288x512, .f32⟩
  | .hbm, ⟨23, _⟩ => ⟨S512, .f32⟩
  | .hbm, ⟨24, _⟩ => ⟨S1x512, .f32⟩
  | .hbm, ⟨25, _⟩ => ⟨S524288x512, .f32⟩
  | .hbm, ⟨26, _⟩ => ⟨S524288x512, .f32⟩
  | .hbm, ⟨27, _⟩ => ⟨S524288x512, .f32⟩
  | .hbm, ⟨28, _⟩ => ⟨S524288x512, .f32⟩
  | .hbm, ⟨29, _⟩ => ⟨S524288x512, .f32⟩
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  reducesTo_S524288x3_S524288_d1 : S524288x3.ReducesTo [1] S524288
  h_S_ : 0 < S_.numel
  bcast_S524288_S524288x1_0 : S524288.BroadcastsInDim S524288x1 (![0] : Fin 1 → Fin S524288x1.rank)
  reducesTo_S512x3_S512_d1 : S512x3.ReducesTo [1] S512
  bcast_S512_S1x512_1 : S512.BroadcastsInDim S1x512 (![1] : Fin 1 → Fin S1x512.rank)
  bcast_S524288x1_S524288x512_0_1 : S524288x1.BroadcastsInDim S524288x512 (![0, 1] : Fin 2 → Fin S524288x512.rank)
  bcast_S1x512_S524288x512_0_1 : S1x512.BroadcastsInDim S524288x512 (![0, 1] : Fin 2 → Fin S524288x512.rank)
  bcast_S_S524288x512 : S_.BroadcastsInDim S524288x512 (![] : Fin 0 → Fin S524288x512.rank)
  dot_S524288x3_S512x3_S524288x512_1_1_0_0_n_n_wf : DotDims.WF S524288x3 S512x3 S524288x512 [1] [1] [0] [0] [] []

variable [Facts₀]

def dot_S524288x3_S512x3_S524288x512_1_1_0_0_n_n : DotDims S524288x3 S512x3 S524288x512 where
  lhsContracting := [1]
  rhsContracting := [1]
  lhsNonContracting := [0]
  rhsNonContracting := [0]
  lhsBatch := []
  rhsBatch := []
  wf := dot_S524288x3_S512x3_S524288x512_1_1_0_0_n_n_wf

class Facts : Prop extends Facts₀ where

variable [Facts]
-- ==== Proof.RbfSpec.lean ====
/-
  The radial-basis feature map on the extended reals, in the two arrangements the programs compute, and the law
  that joins them on finite inputs.

  For a point `x ∈ ℝ³`, a centre `c ∈ ℝ³` and a log-width `l`, the feature is `exp (-‖x - c‖² · e^{-2l})`.
  One arrangement sums the squared coordinate differences directly and multiplies by `e^{-2l}`. The other expands
  `‖x - c‖² = ‖x‖² + ‖c‖² - 2 x·c`, clamps at zero, takes the square root, divides by `e^{l}` and squares again.
  On the reals the expansion is an identity, the sum of squares is nonnegative so the clamp and the root undo each
  other, and `(e^{l})⁻¹ · (e^{l})⁻¹ = e^{-2l}`. None of this survives at an infinity (the expansion subtracts
  infinities), which is why the law is stated for real arguments only.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-! ## The two literals other than zero -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-2.0` denotes the real `-2`. -/
theorem ofBits_neg_two : Ideal.ofBits .f32 0xC0000000#32 = ((-2 : ℝ) : EReal) := by
  simp [Ideal.ofBits, Ideal.ieee, -EReal.coe_mul]; norm_num

/-! ## The direct arrangement -/

/-- The squared distance, the three squared coordinate differences added left to right. -/
def sqDist (x0 x1 x2 c0 c1 c2 : EReal) : EReal :=
  (x0 - c0) * (x0 - c0) + (x1 - c1) * (x1 - c1) + (x2 - c2) * (x2 - c2)

/-- The width factor `e^{-2l}`. -/
def width (l : EReal) : EReal := Ideal.exp (Ideal.ofBits .f32 0xC0000000#32 * l)

/-- The feature from the squared distance and a width factor `a`: `exp ((0 - d²) · a)`. -/
def direct (x0 x1 x2 c0 c1 c2 a : EReal) : EReal :=
  Ideal.exp ((Ideal.ofBits .f32 0x00000000#32 - sqDist x0 x1 x2 c0 c1 c2) * a)

/-! ## The expanded arrangement -/

/-- `‖x‖² + ‖c‖² - 2 x·c`, each sum started from zero. -/
def expanded (x0 x1 x2 c0 c1 c2 : EReal) : EReal :=
  (Ideal.ofBits .f32 0x00000000#32 + (x0 * x0 + x1 * x1 + x2 * x2))
    + (Ideal.ofBits .f32 0x00000000#32 + (c0 * c0 + c1 * c1 + c2 * c2))
    - Ideal.ofBits .f32 0x40000000#32 * (x0 * c0 + x1 * c1 + x2 * c2)

/-- The scaled distance `√(max s 0) / e^{l}`. -/
def scaledDist (s l : EReal) : EReal :=
  Ideal.div (Ideal.sqrt (max s (Ideal.ofBits .f32 0x00000000#32))) (Ideal.exp l)

/-- The feature from the expansion: `exp (-d · d)` of the scaled distance `d`. -/
def viaRoot (x0 x1 x2 c0 c1 c2 l : EReal) : EReal :=
  Ideal.exp (-scaledDist (expanded x0 x1 x2 c0 c1 c2) l * scaledDist (expanded x0 x1 x2 c0 c1 c2) l)

/-! ## The law, on the reals -/

/-- The expansion of the squared distance, on the reals. -/
theorem expanded_coe (x0 x1 x2 c0 c1 c2 : ℝ) :
    expanded x0 x1 x2 c0 c1 c2
      = (((x0 - c0) * (x0 - c0) + (x1 - c1) * (x1 - c1) + (x2 - c2) * (x2 - c2) : ℝ) : EReal) := by
  unfold expanded
  rw [Ideal.ofBits_zero_f32, ofBits_two]
  simp only [zero_add, ← EReal.coe_mul, ← EReal.coe_add, ← EReal.coe_sub]
  exact congrArg _ (by ring)

/-- Squaring the scaled root of a nonnegative real `S`: `-(√S / e^{l}) · (√S / e^{l}) = -S · e^{-2l}`. -/
theorem real_law (S l : ℝ) (hS : 0 ≤ S) :
    -(Real.sqrt S * (1 / Real.exp l)) * (Real.sqrt S * (1 / Real.exp l)) = -S * Real.exp (-2 * l) := by
  have h1 : Real.sqrt S * Real.sqrt S = S := Real.mul_self_sqrt hS
  have h2 : (1 / Real.exp l) * (1 / Real.exp l) = Real.exp (-2 * l) := by
    rw [one_div, ← Real.exp_neg, ← Real.exp_add]
    exact congrArg _ (by ring)
  calc -(Real.sqrt S * (1 / Real.exp l)) * (Real.sqrt S * (1 / Real.exp l))
      = -((Real.sqrt S * Real.sqrt S) * ((1 / Real.exp l) * (1 / Real.exp l))) := by ring
    _ = -S * Real.exp (-2 * l) := by rw [h1, h2]; ring

/-- On real arguments the two arrangements are one extended real. -/
theorem viaRoot_eq_direct (x0 x1 x2 c0 c1 c2 l : ℝ) :
    viaRoot x0 x1 x2 c0 c1 c2 l = direct x0 x1 x2 c0 c1 c2 (width l) := by
  have hS : (0 : ℝ) ≤ (x0 - c0) * (x0 - c0) + (x1 - c1) * (x1 - c1) + (x2 - c2) * (x2 - c2) :=
    add_nonneg (add_nonneg (mul_self_nonneg _) (mul_self_nonneg _)) (mul_self_nonneg _)
  have hS' : (0 : EReal) ≤ (((x0 - c0) * (x0 - c0) + (x1 - c1) * (x1 - c1) + (x2 - c2) * (x2 - c2) : ℝ) : EReal) := by
    exact_mod_cast hS
  unfold viaRoot scaledDist direct width sqDist
  rw [expanded_coe, Ideal.ofBits_zero_f32, max_eq_left hS', Ideal.sqrt_coe, if_neg (not_lt.mpr hS), Ideal.exp_coe,
    Ideal.div_coe (Real.exp_ne_zero l), ofBits_neg_two, zero_sub]
  simp only [← EReal.coe_mul, ← EReal.coe_neg, ← EReal.coe_sub, ← EReal.coe_add, Ideal.exp_coe]
  exact congrArg _ (congrArg _ (real_law _ l hS))

/-! ## The feature array -/

/-- The feature array of `n = 524288` points against `512` centres: entry `(p, o)` is the direct arrangement at point
    `p`'s three coordinates, centre `o`'s three coordinates and the width factor of `o`'s log-width. -/
def feature (x : (⟨2, ![524288, 3]⟩ : Shape).Idx → EReal) (c : (⟨2, ![512, 3]⟩ : Shape).Idx → EReal)
    (l : (⟨1, ![512]⟩ : Shape).Idx → EReal) : (⟨2, ![524288, 512]⟩ : Shape).Idx → EReal :=
  fun i => direct (x (ix2 (i 0 : Fin 524288) (0 : Fin 3))) (x (ix2 (i 0 : Fin 524288) (1 : Fin 3)))
    (x (ix2 (i 0 : Fin 524288) (2 : Fin 3))) (c (ix2 (i 1 : Fin 512) (0 : Fin 3))) (c (ix2 (i 1 : Fin 512) (1 : Fin 3)))
    (c (ix2 (i 1 : Fin 512) (2 : Fin 3))) (width (l (ix1 (i 1 : Fin 512))))

theorem feature_apply (x : (⟨2, ![524288, 3]⟩ : Shape).Idx → EReal) (c : (⟨2, ![512, 3]⟩ : Shape).Idx → EReal)
    (l : (⟨1, ![512]⟩ : Shape).Idx → EReal) (p : Fin 524288) (o : Fin 512) :
    feature x c l (ix2 p o) = direct (x (ix2 p (0 : Fin 3))) (x (ix2 p (1 : Fin 3))) (x (ix2 p (2 : Fin 3)))
      (c (ix2 o (0 : Fin 3))) (c (ix2 o (1 : Fin 3))) (c (ix2 o (2 : Fin 3))) (width (l (ix1 o))) := rfl

end Cert.Rbf

end
-- ==== Proof.RefFeature.lean ====
/-
  The reference program's result, entry by entry: at `(p, o)` it is the expanded arrangement
  `exp (-d · d)`, `d = √(max (‖x_p‖² + ‖c_o‖² - 2 x_p·c_o) 0) / e^{l_o}`, of point `p`, centre `o` and log-width `l_o`.
  Each sum over the three coordinates is written out term by term.
-/
import proofs.«123923_j11321533792915_2_alg».proof.Proof.Gen.ReferenceIdeal.Read
import proofs.«123923_j11321533792915_2_alg».proof.Proof.RbfSpec

noncomputable section

namespace Cert.Rbf.Ref

open Cert.ReferenceIdeal Cert.ReferenceIdeal.Read Idealize.ShloMosaic Idealize.ShloMosaic.ValueIdx

/-- The reference's last stage at `(p, o)` is the expanded arrangement of row `p` of the points, row `o` of the centres
    and entry `o` of the log-widths. -/
theorem stage_apply (x0 : S524288x3.Idx → EReal) (x1 : S512x3.Idx → EReal) (x2 : S512.Idx → EReal)
    (p : Fin 524288) (o : Fin 512) :
    val_main_v22 (F := Ideal) x0 x1 x2 (ix2 p o)
      = viaRoot (x0 (ix2 p (0 : Fin 3))) (x0 (ix2 p (1 : Fin 3))) (x0 (ix2 p (2 : Fin 3)))
          (x1 (ix2 o (0 : Fin 3))) (x1 (ix2 o (1 : Fin 3))) (x1 (ix2 o (2 : Fin 3))) (x2 (ix1 o)) := by
  have ex : ∀ k : Fin 3, idx_main_v1 (idx_main_v2 (idx_main_v6 (ix2 p o))) k = ix2 p k := fun k =>
    funext fun a => Fin.ext (by match a with | ⟨0, _⟩ => rfl | ⟨1, _⟩ => rfl)
  have ec : ∀ k : Fin 3, idx_main_v4 (idx_main_v5 (idx_main_v7 (ix2 p o))) k = ix2 o k := fun k =>
    funext fun a => Fin.ext (by match a with | ⟨0, _⟩ => rfl | ⟨1, _⟩ => rfl)
  have el : ∀ k : Fin 3, lidx_main_v9 (ix2 p o) k = ix2 p k := fun k =>
    funext fun a => Fin.ext (by match a with | ⟨0, _⟩ => rfl | ⟨1, _⟩ => rfl)
  have er : ∀ k : Fin 3, ridx_main_v9 (ix2 p o) k = ix2 o k := fun k =>
    funext fun a => Fin.ext (by match a with | ⟨0, _⟩ => rfl | ⟨1, _⟩ => rfl)
  have ew : idx_main_v17 (idx_main_v18 (ix2 p o)) = ix1 o :=
    funext fun a => Fin.ext (by match a with | ⟨0, _⟩ => rfl)
  simp only [val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_v9_apply, val_main_v8_apply,
    val_main_v7_apply, val_main_v6_apply, val_main_v5_apply, val_main_v4_apply, val_main_v3_apply,
    val_main_v2_apply, val_main_v1_apply, val_main_v0_apply, val_main_cst_apply, val_main_cst_0_apply,
    val_main_cst_1_apply, val_main_cst_2_apply, Fin.sum_univ_three, ex, ec, el, er, ew,
    Ideal.mulf_def, Ideal.addf_def, Ideal.subf_def, Ideal.maximumf_def, Ideal.hostUnary_sqrt_def,
    Ideal.hostUnary_exp_def, Ideal.hostDivf_def, Ideal.hostNegf_def, Ideal.negf_def, Ideal.ofBits_def]
  rfl

/-- When every entry of the three arguments is a real number, the reference's last stage is the feature array: entry
    by entry the expanded arrangement equals the direct one. -/
theorem stage_eq_feature (x0 : S524288x3.Idx → EReal) (x1 : S512x3.Idx → EReal) (x2 : S512.Idx → EReal)
    (h0 : ∀ i, ∃ r : ℝ, x0 i = r) (h1 : ∀ i, ∃ r : ℝ, x1 i = r) (h2 : ∀ i, ∃ r : ℝ, x2 i = r) :
    val_main_v22 (F := Ideal) x0 x1 x2 = feature x0 x1 x2 := by
  funext i
  obtain ⟨p, o, rfl⟩ : ∃ (p : Fin 524288) (o : Fin 512), i = ix2 p o := ⟨i 0, i 1, eq_ix2 i⟩
  rw [stage_apply, feature_apply]
  obtain ⟨a0, ea0⟩ := h0 (ix2 p (0 : Fin 3))
  obtain ⟨a1, ea1⟩ := h0 (ix2 p (1 : Fin 3))
  obtain ⟨a2, ea2⟩ := h0 (ix2 p (2 : Fin 3))
  obtain ⟨b0, eb0⟩ := h1 (ix2 o (0 : Fin 3))
  obtain ⟨b1, eb1⟩ := h1 (ix2 o (1 : Fin 3))
  obtain ⟨b2, eb2⟩ := h1 (ix2 o (2 : Fin 3))
  obtain ⟨l, el⟩ := h2 (ix1 o)
  rw [ea0, ea1, ea2, eb0, eb1, eb2, el]
  exact viaRoot_eq_direct a0 a1 a2 b0 b1 b2 l

end Cert.Rbf.Ref

end
-- ==== Proof.KernelPayload.lean ====
/-
  What the kernel body stores, entry by entry. The body handles a block of 4096 points in two halves of 2048; for each
  half it stores, at row `r` and centre `o`, the direct arrangement `exp ((0 - d²) · a_o)` where `d²` adds the three
  squared differences between the point's coordinate `k` (column `k` of the points block) and the centre's coordinate
  `k` (row `k` of the transposed centres), and `a_o` is entry `o` of the width-factor row. A column of the points block
  spread across the centres reads the point's coordinate whatever the centre; a row of the transposed centres spread down
  the points reads the centre's coordinate whatever the point.
-/
import proofs.«123923_j11321533792915_2_alg».proof.Proof.Gen.KernelIdeal.Skeleton
import proofs.«123923_j11321533792915_2_alg».proof.Proof.RbfSpec
import Idealize.ShloMosaic.Lib.Pipeline.Value
import Idealize.ShloMosaic.Lib.ValueLayout

noncomputable section

namespace Cert.Rbf.Kernel

open Cert.KernelIdeal Cert.KernelIdeal.Gen Idealize.ShloMosaic Idealize.ShloMosaic.ValueIdx

/-- A column `[a, 1]` spread to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of a block of points, spread across the centres, reads the point's coordinate `k`. -/
theorem coord_col (v : Vec Ideal S2048x3 .f32) (kn : ℕ) (k : Fin 3) (hk : kn = k.val)
    (hs : S2048x3.Slices ![0, kn] S2048x1) (hb : S2048x1.Broadcasts S2048x512) (r : Fin 2048) (o : Fin 512) :
    broadcastTo S2048x512 (extractStridedSlice S2048x1 ![0, kn] v hs) hb (ix2 r o) = v (ix2 r k) := by
  rw [broadcastTo_a1_ab_apply, slice2_axis1_eq]
  exact congrArg v (congrArg (ix2 r) (Fin.ext (by show kn + 0 = k.val; omega)))

/-- Row `k` of the transposed centres, spread down the points, reads the centre's coordinate `k`. -/
theorem coord_row (v : FVec Ideal S3x512 .f32) (kn : ℕ) (k : Fin 3) (hk : kn = k.val)
    (hs : S3x512.Slices ![kn, 0] S1x512) (hb : S1x512.Broadcasts S2048x512) (r : Fin 2048) (o : Fin 512) :
    broadcastTo S2048x512 (extractStridedSlice S1x512 ![kn, 0] v hs) hb (ix2 r o) = v (ix2 k o) := by
  rw [broadcastTo_1b_ab_apply, slice2_axis0_eq]
  exact congrArg v (congrArg (ix2 · o) (Fin.ext (by show kn + 0 = k.val; omega)))

/-- The exponential of a vector at an index. -/
theorem exp_apply {s : Shape} (a : FVec Ideal s .f32) (i : s.Idx) : exp a i = Ideal.exp (a i) := rfl

/-- The first half's store: at `(r, o)` the direct arrangement of row `r` of the half's points, column `o` of the
    transposed centres and entry `o` of the width factors. -/
theorem lower_apply (ct : Vec Ideal S3x512 .f32) (al : Vec Ideal S1x512 .f32) (xs : Vec Ideal S2048x3 .f32)
    (r : Fin 2048) (o : Fin 512) :
    k0_pay4 (F := Ideal) ct al xs (ix2 r o)
      = direct (xs (ix2 r (0 : Fin 3))) (xs (ix2 r (1 : Fin 3))) (xs (ix2 r (2 : Fin 3)))
          (ct (ix2 (0 : Fin 3) o)) (ct (ix2 (1 : Fin 3) o)) (ct (ix2 (2 : Fin 3) o)) (al (ix2 (0 : Fin 1) o)) := by
  unfold k0_pay4 k0_pay2 k0_pay3
  simp only [shapeCast_self, exp_apply, mulf_apply, subf_apply, addf_apply, broadcast_apply]
  rw [coord_col xs 0 0 rfl, coord_col xs 1 1 rfl, coord_col xs 2 2 rfl, coord_row ct 0 0 rfl, coord_row ct 1 1 rfl,
    coord_row ct 2 2 rfl, broadcastTo_1b_ab_apply]
  rfl

/-- The second half's store, assembled from the values the body carries over from the first part of its text: the
    same arrangement over the second half's points. -/
theorem upper_apply (ct : Vec Ideal S3x512 .f32) (al : Vec Ideal S1x512 .f32) (xs : Vec Ideal S2048x3 .f32)
    (r : Fin 2048) (o : Fin 512) :
    k0_pay1 (F := Ideal) (k0_pay2 ct) (k0_pay3 al) xs (k0_pay5 ct xs) (k0_pay6 xs) (ix2 r o)
      = direct (xs (ix2 r (0 : Fin 3))) (xs (ix2 r (1 : Fin 3))) (xs (ix2 r (2 : Fin 3)))
          (ct (ix2 (0 : Fin 3) o)) (ct (ix2 (1 : Fin 3) o)) (ct (ix2 (2 : Fin 3) o)) (al (ix2 (0 : Fin 1) o)) := by
  unfold k0_pay1 k0_pay5 k0_pay6 k0_pay2 k0_pay3
  simp only [shapeCast_self, exp_apply, mulf_apply, subf_apply, addf_apply, broadcast_apply]
  rw [coord_col xs 0 0 rfl, coord_col xs 1 1 rfl, coord_col xs 2 2 rfl, coord_row ct 0 0 rfl, coord_row ct 1 1 rfl,
    coord_row ct 2 2 rfl, broadcastTo_1b_ab_apply]
  rfl

end Cert.Rbf.Kernel

end
-- ==== Proof.KernelBlock.lean ====
/-
  What the kernel body leaves in the output block of one grid point: one function of the point's three input blocks.
  The body fills the 4096-row block by two stores of 2048 rows, rows 0–2047 from the first half of the points block and
  rows 2048–4095 from the second half. Both stores write the same function of the block's row and column — the direct
  arrangement of that row of the points block, that column of the transposed centres and that entry of the width
  factors — so the block they tile is that function.
-/
import proofs.«123923_j11321533792915_2_alg».proof.Proof.Gen.KernelIdeal.Frame
import proofs.«123923_j11321533792915_2_alg».proof.Proof.KernelPayload
import Idealize.ShloMosaic.Lib.Pipeline.Value
import Idealize.ShloMosaic.Lib.Tactic

noncomputable section

namespace Cert.Rbf.Kernel

open Cert.KernelIdeal Cert.KernelIdeal.Gen Idealize.ShloMosaic Idealize.ShloMosaic.TcCoe Idealize.SL.Sem
open Idealize.ShloMosaic.ValueIdx

/-- The output block as a function of the input blocks: entry `(q, o)` is the direct arrangement of row `q` of the
    points block, column `o` of the transposed centres and entry `o` of the width factors. -/
def blockFeature (xs : Vec Ideal S4096x3 .f32) (ct : Vec Ideal S3x512 .f32) (al : Vec Ideal S1x512 .f32) :
    Vec Ideal S4096x512 .f32 :=
  fun y => direct (xs (ix2 (y 0 : Fin 4096) (0 : Fin 3))) (xs (ix2 (y 0 : Fin 4096) (1 : Fin 3)))
    (xs (ix2 (y 0 : Fin 4096) (2 : Fin 3))) (ct (ix2 (0 : Fin 3) (y 1 : Fin 512))) (ct (ix2 (1 : Fin 3) (y 1 : Fin 512)))
    (ct (ix2 (2 : Fin 3) (y 1 : Fin 512))) (al (ix2 (0 : Fin 1) (y 1 : Fin 512)))

/-- The block function at an index whose coordinates are known. -/
theorem blockFeature_at (xs : Vec Ideal S4096x3 .f32) (ct : Vec Ideal S3x512 .f32) (al : Vec Ideal S1x512 .f32)
    (q : Fin 4096) (o : Fin 512) (y : S4096x512.Idx) (h0 : (y 0).val = q.val) (h1 : (y 1).val = o.val) :
    blockFeature xs ct al y = direct (xs (ix2 q (0 : Fin 3))) (xs (ix2 q (1 : Fin 3))) (xs (ix2 q (2 : Fin 3)))
      (ct (ix2 (0 : Fin 3) o)) (ct (ix2 (1 : Fin 3) o)) (ct (ix2 (2 : Fin 3) o)) (al (ix2 (0 : Fin 1) o)) := by
  obtain rfl : (y 0 : Fin 4096) = q := Fin.ext h0
  obtain rfl : (y 1 : Fin 512) = o := Fin.ext h1
  rfl

/-- A load of 2048 rows of the points block from row `off` reads, at `(r, k)`, the block at `(off + r, k)`. -/
theorem ld_rows (xs : Vec Ideal S4096x3 .f32) (off : ℕ) (inb : ∀ a, (![off, 0] : Fin 2 → ℕ) a + S2048x3.size a ≤ S4096x3.size a)
    (r : Fin 2048) (k : Fin 3) (q : Fin 4096) (hq : q.val = off + r.val) :
    View.ld xs (Rect.unit (s := S4096x3) ![off, 0] S2048x3.size inb) (ix2 r k) = xs (ix2 q k) :=
  congrArg xs (funext fun a => Fin.ext (by
    match a with
    | ⟨0, _⟩ => show off + 1 * r.val = q.val; omega
    | ⟨1, _⟩ => show 0 + 1 * k.val = k.val; omega))

/-- The direct arrangement depends on the point only through its three coordinates. -/
theorem direct_congr {a0 a0' a1 a1' a2 a2' : EReal} (c0 c1 c2 al : EReal) (h0 : a0 = a0') (h1 : a1 = a1') (h2 : a2 = a2') :
    direct a0 a1 a2 c0 c1 c2 al = direct a0' a1' a2' c0 c1 c2 al := by rw [h0, h1, h2]

theorem hz : (![0, 0] : Fin 2 → Nat) = fun _ => 0 := funext fun a => by fin_cases a <;> rfl

/-- What the body's run leaves in the output's staging buffer is the block function of the three input blocks. -/
theorem out_eq (c : Dev nD) (i : grid0.Coords) (a1 : Memref sig .tc .vmem S4096x3 .f32) (h1 : a1.IsWhole)
    (a2 : Memref sig .tc .vmem S3x512 .f32) (h2 : a2.IsWhole) (a3 : Memref sig .tc .vmem S1x512 .f32) (h3 : a3.IsWhole)
    (a4 : Memref sig .tc .vmem S4096x512 .f32) (h4 : a4.IsWhole)
    (xs : Vec Ideal S4096x3 .f32) (ct : Vec Ideal S3x512 .f32) (al : Vec Ideal S1x512 .f32) :
    out0_A_3 c i a1 h1 a2 h2 a3 h3 a4 h4 xs ct al = blockFeature xs ct al := by
  unfold out0_A_3
  rw [View.read_writes_eq_canon _ _ _ (cover0_A_3 c i a1 h1 a2 h2 a3 h3 a4 h4 xs ct al)]
  funext y
  refine View.canon_apply_of_pieces (blockFeature xs ct al) _ ?_ y (cover0_A_3 c i a1 h1 a2 h2 a3 h3 a4 h4 xs ct al y)
  unfold kernelRun0_A
  dsimp only
  sl_unfold_words
  intro p hp x
  simp only [List.mem_cons, List.not_mem_nil, or_false] at hp
  rcases hp with rfl | rfl
  · -- rows 2048–4095: the second half of the points block
    dsimp only at x ⊢
    obtain ⟨r, o, rfl⟩ : ∃ (r : Fin 2048) (o : Fin 512), x = ix2 r o := ⟨x 0, x 1, eq_ix2 x⟩
    simp only [View.readAt_eq_ld, h1.read_unread, h2.read_unread, h3.read_unread,
      View.ld_unit_zero (S := S3x512) hz, View.ld_unit_zero (S := S1x512) hz]
    rw [upper_apply, blockFeature_at xs ct al ⟨2048 + r.val, by have := r.isLt; omega⟩ o _
      (by show 2048 + 1 * r.val = 2048 + r.val; omega) (by show 0 + 1 * o.val = o.val; omega)]
    exact direct_congr _ _ _ _
      (ld_rows xs 2048 _ r 0 ⟨2048 + r.val, by have := r.isLt; omega⟩ rfl)
      (ld_rows xs 2048 _ r 1 ⟨2048 + r.val, by have := r.isLt; omega⟩ rfl)
      (ld_rows xs 2048 _ r 2 ⟨2048 + r.val, by have := r.isLt; omega⟩ rfl)
  · -- rows 0–2047: the first half
    dsimp only at x ⊢
    obtain ⟨r, o, rfl⟩ : ∃ (r : Fin 2048) (o : Fin 512), x = ix2 r o := ⟨x 0, x 1, eq_ix2 x⟩
    simp only [View.readAt_eq_ld, h1.read_unread, h2.read_unread, h3.read_unread,
      View.ld_unit_zero (S := S3x512) hz, View.ld_unit_zero (S := S1x512) hz]
    rw [lower_apply, blockFeature_at xs ct al ⟨r.val, by have := r.isLt; omega⟩ o _
      (by show 0 + 1 * r.val = r.val; omega) (by show 0 + 1 * o.val = o.val; omega)]
    exact direct_congr _ _ _ _
      (ld_rows xs 0 _ r 0 ⟨r.val, by have := r.isLt; omega⟩ (by show r.val = 0 + r.val; omega))
      (ld_rows xs 0 _ r 1 ⟨r.val, by have := r.isLt; omega⟩ (by show r.val = 0 + r.val; omega))
      (ld_rows xs 0 _ r 2 ⟨r.val, by have := r.isLt; omega⟩ (by show r.val = 0 + r.val; omega))

end Cert.Rbf.Kernel

end
-- ==== Proof.KernelArray.lean ====
/-
  The kernel's result array is the feature array of its arguments.

  The grid has 128 points; point `t` works on rows `4096 t … 4096 t + 4095` of the points and of the result, against the
  whole transposed centres and the whole row of width factors. Before the grid runs, the centres are transposed
  (`(k, o) ↦ centres (o, k)`) and the width factors `e^{-2 l_o}` are computed and laid out as one row. So the block of the
  result that point `t` writes back is the feature array read through that block: entry `(q, o)` of the block is the
  direct arrangement of point `4096 t + q`, centre `o` and log-width `l_o`. The blocks tile the result (row `i` lies in
  the block of point `i / 4096`), so the result is the feature array.
-/
import proofs.«123923_j11321533792915_2_alg».proof.Proof.Gen.KernelIdeal.Value
import proofs.«123923_j11321533792915_2_alg».proof.Proof.KernelBlock
import Idealize.ShloMosaic.Lib.StableHlo.Run
import Idealize.ShloMosaic.Lib.ValueLayout

noncomputable section

namespace Cert.Rbf.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where each window's block sits -/

/-- The block indices, decided over the 128 points: the points and the result move one block down per point; the
    transposed centres and the width factors stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What the host writes before the grid runs -/

/-- The transposed centres, as the grid finds them. -/
theorem centresT_eq (c : Dev nD) : (V m c main_v0 : S3x512.Idx → EReal)
    = transpose S3x512 [1, 0] (m ((c : Thread nD τ).loc main_arg1)) transposes_S512x3_S3x512_1_0 := by
  dsimp only [V, hostOps0]; after_results

/-- The row of width factors, as the grid finds it: `exp (-2 · l)` laid out as `[1, 512]`. -/
theorem widths_eq (c : Dev nD) : (V m c main_v4 : S1x512.Idx → EReal)
    = shapeCast S1x512 (Host.exp (mulf (broadcastInDim S512 ![] bcast_S_S512 (constant (F := Ideal) S_ .f32 0xC0000000#32))
        (m ((c : Thread nD τ).loc main_arg2)))) shapeCasts_S512_S1x512 := by
  dsimp only [V, hostOps0]; after_results; rfl

/-! ## The three input blocks of a point, entry by entry -/

/-- Row `q` of point `t`'s block of points is row `4096 t + q` of the points. -/
theorem points_block (c : Dev nD) (t : Fin cfg0.N) (q : Fin 4096) (k : Fin 3) (p : Fin 524288)
    (hp : p.val = 4096 * t.val + q.val) :
    (iblk m c 0 t : Vec Ideal S4096x3 .f32) (ix2 q k) = m ((c : Thread nD τ).loc main_arg0) (ix2 p k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * q.val = p.val; rw [e0]; omega
  | ⟨1, _⟩ => show win0_0.index t (1 : Fin 2) * 3 + 1 * k.val = k.val; rw [e1]; omega

/-- Entry `(k, o)` of the transposed-centres block is coordinate `k` of centre `o`. -/
theorem centres_block (c : Dev nD) (t : Fin cfg0.N) (k : Fin 3) (o : Fin 512) :
    (iblk m c 1 t : Vec Ideal S3x512 .f32) (ix2 k o) = m ((c : Thread nD τ).loc main_arg1) (ix2 o k) := by
  obtain ⟨-, -, e0, e1, -⟩ := idx_facts t
  unfold iblk
  rw [View.read_apply]
  show V m c main_v0 _ = _
  refine (congrFun (centresT_eq m c) _).trans ?_
  refine transpose_apply _ _ _ _ (ix2 o k) fun b => ?_
  match b with
  | ⟨0, _⟩ => show k.val = win0_1.index t (0 : Fin 2) * 3 + 1 * k.val; rw [e0]; omega
  | ⟨1, _⟩ => show o.val = win0_1.index t (1 : Fin 2) * 512 + 1 * o.val; rw [e1]; omega

/-- Entry `o` of the width-factor block is the width factor of log-width `o`. -/
theorem widths_block (c : Dev nD) (t : Fin cfg0.N) (o : Fin 512) :
    (iblk m c 2 t : Vec Ideal S1x512 .f32) (ix2 (0 : Fin 1) o) = width (m ((c : Thread nD τ).loc main_arg2) (ix1 o)) := by
  obtain ⟨-, -, -, -, e0, e1, -⟩ := idx_facts t
  unfold iblk
  rw [View.read_apply]
  show V m c main_v4 _ = _
  refine (congrFun (widths_eq m c) _).trans ?_
  refine (shapeCast_apply _ _ _ (ix1 o) ?_).trans rfl
  rw [Shape.rowMajor_val_one, Shape.rowMajor_val_two]
  show o.val = (win0_2.index t (0 : Fin 2) * 1 + 1 * 0) * 512 + (win0_2.index t (1 : Fin 2) * 512 + 1 * o.val)
  rw [e0, e1]; omega

/-! ## What a point writes back -/

/-- The feature array of the arguments, as contents of the result array. -/
def featureAt (c : Dev nD) : Buf (Elt Ideal) ((c : Thread nD τ).loc main_v5) :=
  feature (m ((c : Thread nD τ).loc main_arg0)) (m ((c : Thread nD τ).loc main_arg1)) (m ((c : Thread nD τ).loc main_arg2))

/-- The direct arrangement is a function of its seven arguments. -/
theorem direct_congr_all {a0 a1 a2 a3 a4 a5 a6 b0 b1 b2 b3 b4 b5 b6 : EReal} (h0 : a0 = b0) (h1 : a1 = b1) (h2 : a2 = b2)
    (h3 : a3 = b3) (h4 : a4 = b4) (h5 : a5 = b5) (h6 : a6 = b6) :
    direct a0 a1 a2 a3 a4 a5 a6 = direct b0 b1 b2 b3 b4 b5 b6 := by rw [h0, h1, h2, h3, h4, h5, h6]

/-- What point `t` writes back is the feature array read through the point's block of the result. -/
theorem flushed_eq (c : Dev nD) (t : Fin cfg0.N) :
    (dats m 0 c).flushed 3 t = ((cfg0.win 3).blk t).view.read (Elt Ideal) (featureAt m c) := by
  refine (Cert.KernelIdeal.Value.flushed3_A m c t).trans ?_
  refine (congrArg ((cfg0.win 3).cut (grid0.coords t)) (out_eq c (grid0.coords t) (ms0_0 t) (hs0_0 t) (ms0_1 t) (hs0_1 t)
    (ms0_2 t) (hs0_2 t) (ms0_3 t) (hs0_3 t) (iblk m c 0 t) (iblk m c 1 t) (iblk m c 2 t))).trans ?_
  obtain ⟨-, -, -, -, -, -, e0, e1⟩ := idx_facts t
  have hN : cfg0.N = 128 := N_0
  funext j
  obtain ⟨q, o, rfl⟩ : ∃ (q : Fin 4096) (o : Fin 512), j = ix2 q o := ⟨j 0, j 1, eq_ix2 j⟩
  have hp : 4096 * t.val + q.val < 524288 := by have := t.isLt; have := q.isLt; omega
  show blockFeature (iblk m c 0 t) (iblk m c 1 t) (iblk m c 2 t) (ix2 q o)
    = featureAt m c (((cfg0.win 3).blk t).view.emb (ix2 q o))
  have hi : ((cfg0.win 3).blk t).view.emb (ix2 q o) = ix2 (⟨4096 * t.val + q.val, hp⟩ : Fin 524288) o :=
    funext fun a => Fin.ext (by
      match a with
      | ⟨0, _⟩ => show win0_3.index t (0 : Fin 2) * 4096 + 1 * q.val = 4096 * t.val + q.val; rw [e0]; omega
      | ⟨1, _⟩ => show win0_3.index t (1 : Fin 2) * 512 + 1 * o.val = o.val; rw [e1]; omega)
  rw [hi]
  unfold featureAt
  rw [feature_apply, blockFeature_at _ _ _ q o _ rfl rfl]
  exact direct_congr_all (points_block m c t q 0 _ rfl) (points_block m c t q 1 _ rfl) (points_block m c t q 2 _ rfl)
    (centres_block m c t 0 o) (centres_block m c t 1 o) (centres_block m c t 2 o) (widths_block m c t o)

/-! ## The blocks tile the result -/

/-- An index of the result lies in point `t`'s block iff each coordinate is in the block's range. -/
theorem mem_blk (t : Fin cfg0.N) (i : S524288x512.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v5).slice (win0_3.rect t)).set ↔ _
  rw [View.set_slice_whole, Rect.mem_set_unit]
  exact Iff.rfl

/-- The result array after the run is the feature array: row `i` is written back by point `i / 4096`. -/
theorem final (c : Dev nD) : (dats m 0 c).arrAt 3 cfg0.N = featureAt m c :=
  (dats m 0 c).arrAt_eq_of_cover 3 (featureAt m c) (fun t _ => flushed_eq m c t) fun i => by
    have hi0 : (i 0).val < 524288 := (i 0).isLt
    have hi1 : (i 1).val < 512 := (i 1).isLt
    have hN : cfg0.N = 128 := N_0
    have hlt : (i 0).val / 4096 < cfg0.N := by rw [hN]; omega
    obtain ⟨-, -, -, -, -, -, e0, e1⟩ := idx_facts ⟨(i 0).val / 4096, hlt⟩
    refine ⟨⟨(i 0).val / 4096, hlt⟩, flush0_3 _, ?_⟩
    rw [mem_blk]
    intro a
    match a with
    | ⟨0, _⟩ =>
      show win0_3.index ⟨(i 0).val / 4096, hlt⟩ (0 : Fin 2) * 4096 ≤ (i 0).val
        ∧ (i 0).val < win0_3.index ⟨(i 0).val / 4096, hlt⟩ (0 : Fin 2) * 4096 + 4096
      rw [e0]; show (i 0).val / 4096 * 4096 ≤ (i 0).val ∧ (i 0).val < (i 0).val / 4096 * 4096 + 4096; omega
    | ⟨1, _⟩ =>
      show win0_3.index ⟨(i 0).val / 4096, hlt⟩ (1 : Fin 2) * 512 ≤ (i 1).val
        ∧ (i 1).val < win0_3.index ⟨(i 0).val / 4096, hlt⟩ (1 : Fin 2) * 512 + 512
      rw [e1]; omega

/-! ## The run -/

/-- Every weakly fair execution of the kernel's program ends with the result array at the feature array of the
    arguments, the arguments unchanged. -/
theorem run : θ_run defs (onTc (τ := τ) (main (F := Ideal))) ⟨m, fun _ => 0, ρ⟩ fun r => ∀ c : Dev nD,
      r.2.mem ((c : Thread nD τ).loc main_v5) = featureAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rbf.Kernel

end
-- ==== Proof.FiniteInputs.lean ====
/-
  What the precondition says of each entry. The precondition is the conjunction of three tests, one per argument, each
  asking that every entry's absolute value be below `+∞`. An extended real whose absolute value is below `+∞` is neither
  infinity, so it is a real number.
-/
import proofs.«123923_j11321533792915_2_alg».proof.Pre_finite_inputs
import Idealize.ShloMosaic.PureOps.Ideal
import Idealize.ShloMosaic.Lib.ReduceAll
import Idealize.ShloMosaic.Lib.ValueIdx

noncomputable section

namespace Cert.Rbf.Finite

open Cert.Pre_finite_inputs Idealize.ShloMosaic

/-- The rank-zero shape has one index. -/
instance : Subsingleton S_.Idx := ⟨fun _ _ => funext fun d => d.elim0⟩

/-- The pattern of `+∞` denotes the top of the extended reals. -/
theorem ofBits_inf : Ideal.ofBits .f32 0x7F800000#32 = ⊤ := by simp [Ideal.ofBits, Ideal.ieee]

/-- An extended real whose absolute value compares below `+∞` is a real number. -/
theorem real_of_abs_lt (x : EReal)
    (h : FloatOps.cmpf (F := Ideal) .olt (FloatOps.hostAbsf x) (FloatOps.ofBits .f32 0x7F800000#32) = 1#1) :
    ∃ r : ℝ, x = r := by
  have h1 : Ideal.cmp .olt (max x (-x)) (Ideal.ofBits .f32 0x7F800000#32) = 1#1 := h
  rw [ofBits_inf] at h1
  have h2 : max x (-x) < ⊤ := by
    by_contra hn
    have : Ideal.cmp .olt (max x (-x)) ⊤ = 0#1 := by simp [Ideal.cmp, hn]
    rw [this] at h1
    exact absurd h1 (by decide)
  induction x using EReal.rec with
  | bot => simp at h2
  | coe r => exact ⟨r, rfl⟩
  | top => simp at h2

/-- Under the precondition every entry of every argument is a real number. -/
theorem real_of_pre [Facts] (x0 : FVec Ideal S524288x3 .f32) (x1 : FVec Ideal S512x3 .f32) (x2 : FVec Ideal S512 .f32)
    (h : fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [fn] at h0
  obtain ⟨h01, hc⟩ := IntOp.andi_eq_one.1 h0
  obtain ⟨ha, hb⟩ := IntOp.andi_eq_one.1 h01
  exact ⟨fun i => real_of_abs_lt (x0 i) (Host.reduce_andi_all _ _ _ _ _ ha i),
    fun i => real_of_abs_lt (x1 i) (Host.reduce_andi_all _ _ _ _ _ hb i),
    fun i => real_of_abs_lt (x2 i) (Host.reduce_andi_all _ _ _ _ _ hc i)⟩

end Cert.Rbf.Finite

end
-- ==== Proof.lean ====
/-
  The radial-basis kernel against its reference, on the extended reals.

  Both programs compute, for each of 524288 points `x_p ∈ ℝ³` and each of 512 centres `c_o ∈ ℝ³` with log-width `l_o`, the
  feature `exp (-‖x_p - c_o‖² · e^{-2 l_o})`. The kernel adds the three squared coordinate differences and multiplies
  by the width factor `e^{-2 l_o}`, block by block over the points. The reference expands
  `‖x - c‖² = ‖x‖² + ‖c‖² - 2 x·c`, clamps at zero, takes the root, divides by `e^{l_o}` and squares.

  On finite inputs these agree: the expansion is an identity of real numbers, a sum of squares is nonnegative so the
  clamp and the root undo each other, and `(e^{l})⁻¹ · (e^{l})⁻¹ = e^{-2l}`. Finiteness is needed — at an infinite
  coordinate the expansion subtracts infinities — and is what the precondition provides.

  The kernel's result array is the feature array of its arguments (Proof/KernelArray.lean, over the block function
  of Proof/KernelBlock.lean and the stored values of Proof/KernelPayload.lean); the reference's result is, entry by
  entry, the expanded arrangement, equal to the feature on real entries (Proof/RefFeature.lean, by the law of
  Proof/RbfSpec.lean); the precondition makes every entry real (Proof/FiniteInputs.lean). The kernel's idealization
  rewrote nothing, so that conjunct is trivial; the three frames are the programs' runs with the result dropped.
-/
import proofs.«123923_j11321533792915_2_alg».proof.Defs
import proofs.«123923_j11321533792915_2_alg».proof.Proof.Gen.Kernel
import proofs.«123923_j11321533792915_2_alg».proof.Proof.Gen.Kernel.Skeleton
import proofs.«123923_j11321533792915_2_alg».proof.Proof.Gen.Kernel.Launch
import proofs.«123923_j11321533792915_2_alg».proof.Proof.Gen.Kernel.Points
import proofs.«123923_j11321533792915_2_alg».proof.Proof.Gen.Kernel.Frame
import proofs.«123923_j11321533792915_2_alg».proof.Proof.Gen.KernelIdeal
import proofs.«123923_j11321533792915_2_alg».proof.Proof.Gen.KernelIdeal.Skeleton
import proofs.«123923_j11321533792915_2_alg».proof.Proof.Gen.KernelIdeal.Launch
import proofs.«123923_j11321533792915_2_alg».proof.Proof.Gen.KernelIdeal.Points
import proofs.«123923_j11321533792915_2_alg».proof.Proof.Gen.KernelIdeal.Frame
import proofs.«123923_j11321533792915_2_alg».proof.Proof.Gen.ReferenceIdeal
import proofs.«123923_j11321533792915_2_alg».proof.Proof.Gen.KernelIdeal.Value
import proofs.«123923_j11321533792915_2_alg».proof.Proof.Gen.ReferenceIdeal.Run
import proofs.«123923_j11321533792915_2_alg».proof.Proof.Gen.ReferenceIdeal.Read
import proofs.«123923_j11321533792915_2_alg».proof.Proof.Gen.Pre_finite_inputs
import proofs.«123923_j11321533792915_2_alg».proof.Proof.RefFeature
import proofs.«123923_j11321533792915_2_alg».proof.Proof.KernelArray
import proofs.«123923_j11321533792915_2_alg».proof.Proof.FiniteInputs
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments, both idealized programs end with the feature array of those
    arguments: the kernel by its blocks, the reference entry by entry through the law on the reals. -/
theorem algebraic : Cert.algebraic_KernelIdeal_ReferenceIdeal := by
  intro m ρ m' ρ' hpre hagree
  refine ⟨fun c => Cert.Rbf.Kernel.featureAt m c, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Rbf.Finite.real_of_pre _ _ _ (hpre c)
  rw [(hagree c).1, (hagree c).2.1, (hagree c).2.2, Cert.ReferenceIdeal.Read.val_main_v22_eq]
  exact Cert.Rbf.Ref.stage_eq_feature _ _ _ r0 r1 r2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
